-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x32 .f32) (main_arg3 : FVec F S32 .f32) (main_arg4 : FVec F S32x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg4
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S10000x128 : Shape := ⟨2, ![10000, 128]⟩
abbrev S10000x32 : Shape := ⟨2, ![10000, 32]⟩
abbrev S1700000x32 : Shape := ⟨2, ![1700000, 32]⟩
abbrev S100000x1 : Shape := ⟨2, ![100000, 1]⟩
abbrev S10000x1 : Shape := ⟨2, ![10000, 1]⟩
abbrev S1x32 : Shape := ⟨2, ![1, 32]⟩
abbrev S1x1 : Shape := ⟨2, ![1, 1]⟩

abbrev nBuf : Space → Nat
  | .hbm => 87
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x32, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x32, .f32⟩
  | .hbm, ⟨56, _⟩ => ⟨S1700000x1, .f32⟩
  | .hbm, ⟨57, _⟩ => ⟨S1700000x32, .f32⟩
  | .hbm, ⟨58, _⟩ => ⟨S1700000x32, .f32⟩
  | .hbm, ⟨59, _⟩ => ⟨S_, .f32⟩
  | .hbm, ⟨60, _⟩ => ⟨S100000x32, .f32⟩
  | .hbm, ⟨61, _⟩ => ⟨S1700000x1, .i32⟩
  | .hbm, ⟨62, _⟩ => ⟨S100000x32, .f32⟩
  | .hbm, ⟨63, _⟩ => ⟨S100000x1, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x1, .f32⟩
  | .hbm, ⟨73, _⟩ => ⟨S1700000x1, .f32⟩
  | .hbm, ⟨74, _⟩ => ⟨S1700000x1, .f32⟩
  | .hbm, ⟨75, _⟩ => ⟨S_, .f32⟩
  | .hbm, ⟨76, _⟩ => ⟨S100000x1, .f32⟩
  | .hbm, ⟨77, _⟩ => ⟨S1700000x1, .i32⟩
  | .hbm, ⟨78, _⟩ => ⟨S100000x1, .f32⟩
  | .hbm, ⟨79, _⟩ => ⟨S1x1, .f32⟩
  | .hbm, ⟨80, _⟩ => ⟨S100000x1, .f32⟩
  | .hbm, ⟨81, _⟩ => ⟨S100000x1, .f32⟩
  | .hbm, ⟨82, _⟩ => ⟨S_, .f32⟩
  | .hbm, ⟨83, _⟩ => ⟨S1, .f32⟩
  | .hbm, ⟨84, _⟩ => ⟨S_, .f32⟩
  | .hbm, ⟨85, _⟩ => ⟨S1, .f32⟩
  | .hbm, ⟨86, _⟩ => ⟨S1, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S32, .f32⟩
  | .local _ .vmem, ⟨8, _⟩ => ⟨S32x1, .f32⟩
  | .local _ .vmem, ⟨9, _⟩ => ⟨S10000x1, .f32⟩
  | .local _ .vmem, ⟨10, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S10000x32_S10000x32 : S10000x32.ShapeCasts S10000x32
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S1_d0 : S100000x1.ReducesTo [0] S1
  h_S_ : 0 < S_.numel
  bcast_S_S1 : S_.BroadcastsInDim S1 (![] : Fin 0 → Fin S1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x32_S10000x32_1_0_0_1_n_n_wf : DotDims.WF S10000x128 S128x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x1_S10000x1_1_0_0_1_n_n_wf : DotDims.WF S10000x32 S32x1 S10000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32.size a ≤ S32.size a
  hwx1_1 : ∀ i : grid1.Coords, EltTy.bits .f32 = 32 ∨ (Rect.block (s := S32) S32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x1.size a ≤ S32x1.size a
  hwx1_2 : ∀ i : grid1.Coords, EltTy.bits .f32 = 32 ∨ (Rect.block (s := S32x1) S32x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000x32 : Shape := ⟨2, ![100000, 32]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S128x32, .f32⟩
  | 3 => ⟨S32, .f32⟩
  | 4 => ⟨S32x1, .f32⟩
  | 5 => ⟨S1, .f32⟩
  | 6 => ⟨S1x1600000, .i32⟩
  | 7 => ⟨S1600000, .i32⟩
  | 8 => ⟨S1x1600000, .i32⟩
  | 9 => ⟨S1600000, .i32⟩
  | 10 => ⟨S100000x32, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x32, .f32⟩
  | 56 => ⟨S1700000x1, .f32⟩
  | 57 => ⟨S1700000x32, .f32⟩
  | 58 => ⟨S1700000x32, .f32⟩
  | 59 => ⟨S_, .f32⟩
  | 60 => ⟨S100000x32, .f32⟩
  | 61 => ⟨S1700000x1, .i32⟩
  | 62 => ⟨S100000x32, .f32⟩
  | 63 => ⟨S1x32, .f32⟩
  | 64 => ⟨S100000x32, .f32⟩
  | 65 => ⟨S100000x32, .f32⟩
  | 66 => ⟨S_, .f32⟩
  | 67 => ⟨S100000x32, .f32⟩
  | 68 => ⟨S100000x32, .f32⟩
  | 69 => ⟨S100000x1, .f32⟩
  | 70 => ⟨S100000, .i32⟩
  | 71 => ⟨S1700000, .i32⟩
  | 72 => ⟨S1700000, .i32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x1, .f32⟩
  | 115 => ⟨S1700000x1, .f32⟩
  | 116 => ⟨S1700000x1, .f32⟩
  | 117 => ⟨S_, .f32⟩
  | 118 => ⟨S100000x1, .f32⟩
  | 119 => ⟨S1700000x1, .i32⟩
  | 120 => ⟨S100000x1, .f32⟩
  | 121 => ⟨S1x1, .f32⟩
  | 122 => ⟨S100000x1, .f32⟩
  | 123 => ⟨S100000x1, .f32⟩
  | 124 => ⟨S_, .f32⟩
  | 125 => ⟨S1, .f32⟩
  | 126 => ⟨S_, .f32⟩
  | 127 => ⟨S1, .f32⟩
  | _ => ⟨S100000x128, .f32⟩

abbrev hbmTy0_1 (i : Nat) : BufTy := match i % 128 with
  | 0 => ⟨S1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_20 : Ref sig .tc := ⟨.hbm, 124, rfl⟩
abbrev main_v90 : Ref sig .tc := ⟨.hbm, 125, rfl⟩
abbrev main_cst_21 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S1_d0 : S100000x1.ReducesTo [0] S1
  h_S_ : 0 < S_.numel
  bcast_S_S1 : S_.BroadcastsInDim S1 (![] : Fin 0 → Fin S1.rank)
  dot_S100000x128_S128x32_S100000x32_1_0_0_1_n_n_wf : DotDims.WF S100000x128 S128x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x1_S100000x1_1_0_0_1_n_n_wf : DotDims.WF S100000x32 S32x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.ResultRun.lean ====
/-
  The idealized kernel program, run whole: every weakly fair execution terminates without a fault and leaves, in the
  buffer of the mean it returns, the contents that the program's segments assign to it in order — the host stages
  before the first product, the first product's row blocks written back, the neighbourhood sum between the products,
  the second product's row blocks written back, and the closing neighbourhood sum and mean — while the six argument
  arrays end as they were launched. The contents are named here only as the last boundary of that chain of segments;
  the sibling modules read them as functions of the arguments.
-/
import proofs.«114104_j82583631168190_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run with the returned buffer named: it ends at the last segment boundary's contents of that buffer, and
    each argument array at its launch contents. -/
theorem run : θ_run defs (onTc (τ := τ) (main (F := F))) ⟨m, fun _ => 0, ρ⟩ (fun r => ∀ c : Dev nD,
      r.2.mem ((c.tc : Thread nD τ).loc main_v62) = W7 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v62 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Result

end
-- ==== Proof.Products.lean ====
/-
  The two dense stages of a two-layer graph convolution, as functions of whole arrays, index by index, on the extended
  reals. A graph convolution layer multiplies the node features by a weight matrix and then sums, into every node, the
  scaled rows of its neighbours; the neighbourhood sums are the same host computation wherever they occur, so only the
  products are spelt out here.

  * `featureProduct x w`: entry `(r, j)` of the product of the 100000 × 128 feature array with the 128 × 32 weights,
    `∑ k, x[r, k] · w[k, j]`.
  * `hiddenProduct a b w`: entry `(r, 0)` of the second layer's product, taken of the first layer's output after its
    bias and rectifier: `∑ k, max (a[r, k] + b[k]) 0 · w[k, 0]`.

  Each entry depends on ONE row of the left array. That is why cutting the rows into blocks, multiplying each block by
  the whole weight matrix and laying the results side by side gives the same array as one whole product: no sum is
  split or reordered, so no law of the extended reals beyond the definition of the sums is used, and the arrays' entries
  may be infinite.
-/
import Idealize.ShloMosaic.PureOps.Ideal
import Idealize.ShloMosaic.Lib.ValueIdx

noncomputable section

open scoped BigOperators

namespace GraphConv

open Idealize.ShloMosaic Idealize.ShloMosaic.ValueIdx

/-- The zero the rectifier compares with: the extended real that the all-zero 32-bit pattern denotes. -/
abbrev zeroWord : EReal := Ideal.ofBits .f32 0x00000000#32

/-- Entry `(r, j)` of features × weights: the sum over the 128 feature columns. -/
def featureProduct (x : (⟨2, ![100000, 128]⟩ : Shape).Idx → EReal) (w : (⟨2, ![128, 32]⟩ : Shape).Idx → EReal) :
    (⟨2, ![100000, 32]⟩ : Shape).Idx → EReal :=
  fun i => ∑ k : Fin 128, x (ix2 (⟨(i 0).val, (i 0).isLt⟩ : Fin 100000) k) * w (ix2 k (⟨(i 1).val, (i 1).isLt⟩ : Fin 32))

/-- Entry `(r, 0)` of rectified (aggregate + bias) × second weights: the sum over the 32 hidden columns. -/
def hiddenProduct (a : (⟨2, ![100000, 32]⟩ : Shape).Idx → EReal) (b : (⟨1, ![32]⟩ : Shape).Idx → EReal)
    (w : (⟨2, ![32, 1]⟩ : Shape).Idx → EReal) : (⟨2, ![100000, 1]⟩ : Shape).Idx → EReal :=
  fun i => ∑ k : Fin 32, max (a (ix2 (⟨(i 0).val, (i 0).isLt⟩ : Fin 100000) k) + b (ix1 k)) zeroWord
    * w (ix2 k (⟨(i 1).val, (i 1).isLt⟩ : Fin 1))

/-- An array read at two indices with the same coordinates reads the same entry. -/
theorem read_congr2 {n0 n1 : Nat} {α : Type} (x : (⟨2, ![n0, n1]⟩ : Shape).Idx → α) (i i' : (⟨2, ![n0, n1]⟩ : Shape).Idx)
    (h0 : (i 0).val = (i' 0).val) (h1 : (i 1).val = (i' 1).val) : x i = x i' :=
  congrArg x (funext fun a => Fin.ext (by
    match a with
    | ⟨0, _⟩ => exact h0
    | ⟨1, _⟩ => exact h1))

end GraphConv

end
-- ==== Proof.FeatureBlocks.lean ====
/-
  The first product, block by block. The kernel cuts the 100000 feature rows into ten blocks of 10000 rows; at block
  `t` it multiplies rows `10000·t … 10000·t + 9999` of the features by the WHOLE 128 × 32 weight matrix (rounding both to
  bfloat16 first, which is the identity on the extended reals) into a zero accumulator, and writes the 10000 × 32 result
  back as rows `10000·t …` of the output. An entry of a product depends on one row of the left factor only, so what block
  `t` writes is rows `10000·t …` of the whole product `featureProduct`; the ten blocks tile the 100000 rows; hence the
  output array, after the last block, IS the whole product of the arrays the stage was entered with.
-/
import proofs.«114104_j82583631168190_1_alg».proof.Proof.Gen.KernelIdeal.Frame
import proofs.«114104_j82583631168190_1_alg».proof.Proof.Products
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.FeatureBlocks

open Cert.KernelIdeal Cert.KernelIdeal.Gen GraphConv
open Idealize.ShloMosaic Idealize.ShloMosaic.TcCoe Idealize.ShloMosaic.ValueIdx Idealize.SL.Sem
open Idealize.ShloMosaic.Pipeline (Dat Cfg Window)

/-- The all-zero offset of a whole-buffer access. -/
theorem offset_zero : (![0, 0] : Fin 2 → Nat) = fun _ => 0 := funext fun a => by fin_cases a <;> rfl

/-- The contraction of the block product runs over one axis, of extent 128. -/
abbrev blockDot : DotDims S10000x128 S128x32 S10000x32 := dot_S10000x128_S128x32_S10000x32_1_0_0_1_n_n

theorem lhs_row (i : S10000x32.Idx) (q : blockDot.contr.Idx) : (blockDot.lhsIdx i q 0).val = (i 0).val := by
  unfold DotDims.lhsIdx
  rw [dif_neg (show ¬(0 : Fin S10000x128.rank) ∈ blockDot.lhsBatch by decide), dif_pos (show (0 : Fin S10000x128.rank) ∈ blockDot.lhsNonContracting by decide)]
  rfl
theorem lhs_col (i : S10000x32.Idx) (q : blockDot.contr.Idx) : (blockDot.lhsIdx i q 1).val = (q ⟨0, by decide⟩).val :=
  blockDot.lhsIdx_val_of_single rfl i q
theorem rhs_row (i : S10000x32.Idx) (q : blockDot.contr.Idx) : (blockDot.rhsIdx i q 0).val = (q ⟨0, by decide⟩).val :=
  blockDot.rhsIdx_val_of_single rfl i q
theorem rhs_col (i : S10000x32.Idx) (q : blockDot.contr.Idx) : (blockDot.rhsIdx i q 1).val = (i 1).val := by
  unfold DotDims.rhsIdx
  rw [dif_neg (show ¬(1 : Fin S128x32.rank) ∈ blockDot.rhsBatch by decide), dif_pos (show (1 : Fin S128x32.rank) ∈ blockDot.rhsNonContracting by decide)]
  rfl

/-- WHAT ONE BLOCK COMPUTES, at row `p` and column `q` of the block: the sum over the 128 feature columns of the block's
    row `p` against the weights' column `q` (a product into a zero accumulator is the plain sum; the roundings vanish). -/
theorem block_entry (x0 : Vec Ideal S10000x128 .f32) (x1 : Vec Ideal S128x32 .f32) (p : Fin 10000) (q : Fin 32) :
    k0_pay1 (F := Ideal) x0 x1 (ix2 p q) = ∑ k : Fin 128, x0 (ix2 p k) * x1 (ix2 k q) := by
  unfold k0_pay1
  refine (Ideal.matmul_constant_zero_apply blockDot none _ _ (ix2 p q)).trans ?_
  rw [← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 128 rfl rfl).symm k) = ix2 k q := funext fun a => Fin.ext (by
    match a with
    | ⟨0, _⟩ => exact (rhs_row _ _).trans hk
    | ⟨1, _⟩ => exact rhs_col _ _)
  rw [el, er]
  rfl

section Region
variable (V : (c : Dev nD) → (b : Ref sig .tc) → Buf (Elt Ideal) ((c : Thread nD τ).loc b))

/-- Where the blocks sit, decided once over the ten grid points: the feature window and the output window are at block
    row `t`, block column 0; the weight window is the whole matrix at every point. -/
theorem block_places : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the feature block at point `t` is row `10000·t + p` of the feature array. -/
theorem feature_block_entry (c : Dev nD) (t : Fin cfg0.N) (p : Fin 10000) (k : Fin 128)
    (i : (⟨2, ![100000, 128]⟩ : Shape).Idx) (h0 : (i 0).val = t.val * 10000 + p.val) (h1 : (i 1).val = k.val) :
    iblk0 V c 0 t (ix2 p k) = V c main_arg0 i := by
  show V c main_arg0 (((cfg0.win 0).blk t).view.emb (ix2 p k)) = V c main_arg0 i
  obtain ⟨e0, e1, -, -, -, -⟩ := block_places t
  refine congrArg (V c main_arg0) (funext fun a => Fin.ext ?_)
  match a with
  | ⟨0, _⟩ => show win0_0.index t (0 : Fin 2) * 10000 + 1 * p.val = (i 0).val; omega
  | ⟨1, _⟩ => show win0_0.index t (1 : Fin 2) * 128 + 1 * k.val = (i 1).val; omega

/-- The weight block at every point is the weight array itself. -/
theorem weight_block_entry (c : Dev nD) (t : Fin cfg0.N) (k : Fin 128) (q : Fin 32)
    (i : (⟨2, ![128, 32]⟩ : Shape).Idx) (h0 : (i 0).val = k.val) (h1 : (i 1).val = q.val) :
    iblk0 V c 1 t (ix2 k q) = V c main_arg2 i := by
  show V c main_arg2 (((cfg0.win 1).blk t).view.emb (ix2 k q)) = V c main_arg2 i
  obtain ⟨-, -, e2, e3, -, -⟩ := block_places t
  refine congrArg (V c main_arg2) (funext fun a => Fin.ext ?_)
  match a with
  | ⟨0, _⟩ => show win0_1.index t (0 : Fin 2) * 128 + 1 * k.val = (i 0).val; omega
  | ⟨1, _⟩ => show win0_1.index t (1 : Fin 2) * 32 + 1 * q.val = (i 1).val; omega

/-- WHAT POINT `t` WRITES BACK is rows `10000·t …` of the whole product of the arrays the stage was entered with. -/
theorem written_block (c : Dev nD) (t : Fin cfg0.N) :
    (dat0 V c).flushed 2 t
      = ((cfg0.win 2).blk t).view.read (Elt Ideal) (featureProduct (V c main_arg0) (V c main_arg2)) := by
  show (cfg0.win 2).cut (grid0.coords t) ((dat0 V c).after 2 t) = _
  rw [after0_2]
  unfold out0_2
  rw [View.canon_unit_zero offset_zero]
  simp only [View.ld_unit_zero (S := S10000x128) offset_zero, View.ld_unit_zero (S := S128x32) offset_zero]
  funext j
  obtain ⟨p, q, rfl⟩ : ∃ (p : Fin 10000) (q : Fin 32), j = ix2 p q := ⟨j 0, j 1, eq_ix2 j⟩
  show k0_pay1 (F := Ideal) (iblk0 V c 0 t) (iblk0 V c 1 t) (ix2 p q)
    = featureProduct (V c main_arg0) (V c main_arg2) (((cfg0.win 2).blk t).view.emb (ix2 p q))
  refine (block_entry (iblk0 V c 0 t) (iblk0 V c 1 t) p q).trans ?_
  obtain ⟨-, -, -, -, e4, e5⟩ := block_places t
  have r0 : ((((cfg0.win 2).blk t).view.emb (ix2 p q)) 0).val = t.val * 10000 + p.val := by
    show win0_2.index t (0 : Fin 2) * 10000 + 1 * p.val = _; omega
  have r1 : ((((cfg0.win 2).blk t).view.emb (ix2 p q)) 1).val = q.val := by
    show win0_2.index t (1 : Fin 2) * 32 + 1 * q.val = _; omega
  unfold featureProduct
  refine Finset.sum_congr rfl fun k _ => ?_
  have hx : iblk0 V c 0 t (ix2 p k)
      = V c main_arg0 (ix2 (⟨((((cfg0.win 2).blk t).view.emb (ix2 p q)) 0).val, ((((cfg0.win 2).blk t).view.emb (ix2 p q)) 0).isLt⟩ : Fin 100000) k) :=
    feature_block_entry V c t p k _ r0 rfl
  have hw : iblk0 V c 1 t (ix2 k q)
      = V c main_arg2 (ix2 k (⟨((((cfg0.win 2).blk t).view.emb (ix2 p q)) 1).val, ((((cfg0.win 2).blk t).view.emb (ix2 p q)) 1).isLt⟩ : Fin 32)) :=
    weight_block_entry V c t k q _ rfl r1
  rw [hx, hw]

/-- An index of the output array is in point `t`'s block iff its row is among `10000·t … 10000·t + 9999`. -/
theorem in_block_iff (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v30).slice (win0_2.rect t)).set ↔ _
  rw [View.set_slice_whole, Rect.mem_set_unit]
  exact Iff.rfl

/-- The ten row blocks cover the output: row `r` is in block `r / 10000`. -/
theorem blocks_cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := N_0
  refine ⟨⟨(i 0).val / 10000, by rw [hN]; omega⟩, flush0_2 _, ?_⟩
  rw [in_block_iff]
  obtain ⟨-, -, -, -, e4, e5⟩ := block_places ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 32 ≤ (i 1).val ∧ (i 1).val < win0_2.index _ (1 : Fin 2) * 32 + 32
    rw [e5]; omega

/-- THE OUTPUT ARRAY after the ten blocks is the whole product of the arrays the stage was entered with. -/
theorem array_eq (c : Dev nD) :
    (dat0 V c).arrAt 2 cfg0.N = featureProduct (V c main_arg0) (V c main_arg2) :=
  (dat0 V c).arrAt_eq_of_cover 2 (featureProduct (V c main_arg0) (V c main_arg2)) (fun t _ => written_block V c t) blocks_cover

end Region

end Cert.KernelIdeal.FeatureBlocks

end
-- ==== Proof.HiddenBlocks.lean ====
/-
  The second product, block by block, fused with the first layer's bias and rectifier. At block `t` the kernel takes rows
  `10000·t … 10000·t + 9999` of the aggregated first-layer features, adds the 32 biases to every row (the bias vector
  laid out as one row and repeated down the block), takes the maximum with zero entry by entry, and multiplies the result
  by the WHOLE 32 × 1 second weight matrix (both rounded to bfloat16 first: the identity on the extended reals) into a
  zero accumulator; the 10000 × 1 result is written back as rows `10000·t …` of the output. Bias, rectifier and product
  all act within one row, so what block `t` writes is rows `10000·t …` of `hiddenProduct` of the whole arrays; the ten
  blocks tile the 100000 rows; hence the output array after the last block IS `hiddenProduct` of the arrays the stage was
  entered with.
-/
import proofs.«114104_j82583631168190_1_alg».proof.Proof.Gen.KernelIdeal.Frame
import proofs.«114104_j82583631168190_1_alg».proof.Proof.Products
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HiddenBlocks

open Cert.KernelIdeal Cert.KernelIdeal.Gen GraphConv
open Idealize.ShloMosaic Idealize.ShloMosaic.TcCoe Idealize.ShloMosaic.ValueIdx Idealize.SL.Sem
open Idealize.ShloMosaic.Pipeline (Dat Cfg Window)

/-- The all-zero offsets of whole-buffer accesses, of a matrix and of a vector. -/
theorem offset_zero2 : (![0, 0] : Fin 2 → Nat) = fun _ => 0 := funext fun a => by fin_cases a <;> rfl
theorem offset_zero1 : (![0] : Fin 1 → Nat) = fun _ => 0 := funext fun a => by fin_cases a <;> rfl

/-- The contraction of the block product runs over one axis, of extent 32. -/
abbrev blockDot : DotDims S10000x32 S32x1 S10000x1 := dot_S10000x32_S32x1_S10000x1_1_0_0_1_n_n

theorem lhs_row (i : S10000x1.Idx) (q : blockDot.contr.Idx) : (blockDot.lhsIdx i q 0).val = (i 0).val := by
  unfold DotDims.lhsIdx
  rw [dif_neg (show ¬(0 : Fin S10000x32.rank) ∈ blockDot.lhsBatch by decide), dif_pos (show (0 : Fin S10000x32.rank) ∈ blockDot.lhsNonContracting by decide)]
  rfl
theorem lhs_col (i : S10000x1.Idx) (q : blockDot.contr.Idx) : (blockDot.lhsIdx i q 1).val = (q ⟨0, by decide⟩).val :=
  blockDot.lhsIdx_val_of_single rfl i q
theorem rhs_row (i : S10000x1.Idx) (q : blockDot.contr.Idx) : (blockDot.rhsIdx i q 0).val = (q ⟨0, by decide⟩).val :=
  blockDot.rhsIdx_val_of_single rfl i q
theorem rhs_col (i : S10000x1.Idx) (q : blockDot.contr.Idx) : (blockDot.rhsIdx i q 1).val = (i 1).val := by
  unfold DotDims.rhsIdx
  rw [dif_neg (show ¬(1 : Fin S32x1.rank) ∈ blockDot.rhsBatch by decide), dif_pos (show (1 : Fin S32x1.rank) ∈ blockDot.rhsNonContracting by decide)]
  rfl

/-- The bias vector, laid out as one row and repeated down a block, reads at `(p, k)` the bias `k`. -/
theorem bias_rows_entry (x1 : Vec Ideal S32 .f32) (p : Fin 10000) (k : Fin 32) :
    broadcastTo S10000x32 (shapeCast S1x32 x1 shapeCasts_S32_S1x32) broadcasts_S1x32_S10000x32 (ix2 p k) = x1 (ix1 k) :=
  (broadcastTo_1b_ab_apply _ _ p k).trans (shapeCast_a_1a_apply x1 _ 0 k)

/-- The rectified, biased block at `(p, k)`: the larger of `x[p, k] + b[k]` and zero. -/
theorem rectified_entry (x0 : Vec Ideal S10000x32 .f32) (x1 : Vec Ideal S32 .f32) (p : Fin 10000) (k : Fin 32) :
    maximumf (addf (shapeCast S10000x32 x0 shapeCasts_S10000x32_S10000x32)
        (broadcastTo S10000x32 (shapeCast S1x32 x1 shapeCasts_S32_S1x32) broadcasts_S1x32_S10000x32))
      (broadcast S10000x32 (Scalar.ofBits (F := Ideal) .f32 0x00000000#32)) (ix2 p k)
      = max (x0 (ix2 p k) + x1 (ix1 k)) zeroWord := by
  show max (shapeCast S10000x32 x0 shapeCasts_S10000x32_S10000x32 (ix2 p k)
      + broadcastTo S10000x32 (shapeCast S1x32 x1 shapeCasts_S32_S1x32) broadcasts_S1x32_S10000x32 (ix2 p k)) _ = _
  rw [shapeCast_self, bias_rows_entry]
  rfl

/-- WHAT ONE BLOCK COMPUTES, at row `p` of the block: the sum over the 32 hidden columns of the rectified, biased row
    `p` against the second weights (a product into a zero accumulator is the plain sum; the roundings vanish). -/
theorem block_entry (x0 : Vec Ideal S10000x32 .f32) (x1 : Vec Ideal S32 .f32) (x2 : Vec Ideal S32x1 .f32) (p : Fin 10000) (q : Fin 1) :
    k1_pay1 (F := Ideal) x0 x1 x2 (ix2 p q) = ∑ k : Fin 32, max (x0 (ix2 p k) + x1 (ix1 k)) zeroWord * x2 (ix2 k q) := by
  unfold k1_pay1
  refine (Ideal.matmul_constant_zero_apply blockDot none _ _ (ix2 p q)).trans ?_
  rw [← Equiv.sum_comp (contrEquiv1 blockDot 32 rfl rfl).symm]
  refine Finset.sum_congr rfl fun k _ => ?_
  have hk := contrEquiv1_symm_val blockDot 32 rfl rfl k
  have el : blockDot.lhsIdx (ix2 p q) ((contrEquiv1 blockDot 32 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 32 rfl rfl).symm k) = ix2 k q := funext fun a => Fin.ext (by
    match a with
    | ⟨0, _⟩ => exact (rhs_row _ _).trans hk
    | ⟨1, _⟩ => exact rhs_col _ _)
  rw [el, er]
  exact congrArg (· * x2 (ix2 k q)) (rectified_entry x0 x1 p k)

section Region
variable (V : (c : Dev nD) → (b : Ref sig .tc) → Buf (Elt Ideal) ((c : Thread nD τ).loc b))

/-- Where the blocks sit, decided once over the ten grid points: the aggregate window and the output window are at block
    row `t`, block column 0; the bias and the second weights are whole at every point. -/
theorem block_places : ∀ t : Fin cfg1.N,
    win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the aggregate block at point `t` is row `10000·t + p` of the aggregate array. -/
theorem aggregate_block_entry (c : Dev nD) (t : Fin cfg1.N) (p : Fin 10000) (k : Fin 32)
    (i : (⟨2, ![100000, 32]⟩ : Shape).Idx) (h0 : (i 0).val = t.val * 10000 + p.val) (h1 : (i 1).val = k.val) :
    iblk1 V c 0 t (ix2 p k) = V c main_v43 i := by
  show V c main_v43 (((cfg1.win 0).blk t).view.emb (ix2 p k)) = V c main_v43 i
  obtain ⟨e0, e1, -, -, -, -, -⟩ := block_places t
  refine congrArg (V c main_v43) (funext fun a => Fin.ext ?_)
  match a with
  | ⟨0, _⟩ => show win1_0.index t (0 : Fin 2) * 10000 + 1 * p.val = (i 0).val; omega
  | ⟨1, _⟩ => show win1_0.index t (1 : Fin 2) * 32 + 1 * k.val = (i 1).val; omega

/-- The bias block at every point is the bias array itself. -/
theorem bias_block_entry (c : Dev nD) (t : Fin cfg1.N) (k : Fin 32) :
    iblk1 V c 1 t (ix1 k) = V c main_arg3 (ix1 k) := by
  show V c main_arg3 (((cfg1.win 1).blk t).view.emb (ix1 k)) = V c main_arg3 (ix1 k)
  obtain ⟨-, -, e2, -, -, -, -⟩ := block_places t
  refine congrArg (V c main_arg3) (funext fun a => Fin.ext ?_)
  match a with
  | ⟨0, _⟩ => show win1_1.index t (0 : Fin 1) * 32 + 1 * k.val = k.val; omega

/-- The second-weight block at every point is the weight array itself. -/
theorem weight_block_entry (c : Dev nD) (t : Fin cfg1.N) (k : Fin 32) (q : Fin 1)
    (i : (⟨2, ![32, 1]⟩ : Shape).Idx) (h0 : (i 0).val = k.val) (h1 : (i 1).val = q.val) :
    iblk1 V c 2 t (ix2 k q) = V c main_arg4 i := by
  show V c main_arg4 (((cfg1.win 2).blk t).view.emb (ix2 k q)) = V c main_arg4 i
  obtain ⟨-, -, -, e3, e4, -, -⟩ := block_places t
  refine congrArg (V c main_arg4) (funext fun a => Fin.ext ?_)
  match a with
  | ⟨0, _⟩ => show win1_2.index t (0 : Fin 2) * 32 + 1 * k.val = (i 0).val; omega
  | ⟨1, _⟩ => show win1_2.index t (1 : Fin 2) * 1 + 1 * q.val = (i 1).val; omega

/-- WHAT POINT `t` WRITES BACK is rows `10000·t …` of `hiddenProduct` of the arrays the stage was entered with. -/
theorem written_block (c : Dev nD) (t : Fin cfg1.N) :
    (dat1 V c).flushed 3 t
      = ((cfg1.win 3).blk t).view.read (Elt Ideal) (hiddenProduct (V c main_v43) (V c main_arg3) (V c main_arg4)) := by
  show (cfg1.win 3).cut (grid1.coords t) ((dat1 V c).after 3 t) = _
  rw [after1_3]
  unfold out1_3
  rw [View.canon_unit_zero offset_zero2]
  simp only [View.ld_unit_zero (S := S10000x32) offset_zero2, View.ld_unit_zero (S := S32) offset_zero1,
    View.ld_unit_zero (S := S32x1) offset_zero2]
  funext j
  obtain ⟨p, q, rfl⟩ : ∃ (p : Fin 10000) (q : Fin 1), j = ix2 p q := ⟨j 0, j 1, eq_ix2 j⟩
  show k1_pay1 (F := Ideal) (iblk1 V c 0 t) (iblk1 V c 1 t) (iblk1 V c 2 t) (ix2 p q)
    = hiddenProduct (V c main_v43) (V c main_arg3) (V c main_arg4) (((cfg1.win 3).blk t).view.emb (ix2 p q))
  refine (block_entry (iblk1 V c 0 t) (iblk1 V c 1 t) (iblk1 V c 2 t) p q).trans ?_
  obtain ⟨-, -, -, -, -, e5, e6⟩ := block_places t
  have r0 : ((((cfg1.win 3).blk t).view.emb (ix2 p q)) 0).val = t.val * 10000 + p.val := by
    show win1_3.index t (0 : Fin 2) * 10000 + 1 * p.val = _; omega
  have r1 : ((((cfg1.win 3).blk t).view.emb (ix2 p q)) 1).val = q.val := by
    show win1_3.index t (1 : Fin 2) * 1 + 1 * q.val = _; omega
  unfold hiddenProduct
  refine Finset.sum_congr rfl fun k _ => ?_
  have hx : iblk1 V c 0 t (ix2 p k)
      = V c main_v43 (ix2 (⟨((((cfg1.win 3).blk t).view.emb (ix2 p q)) 0).val, ((((cfg1.win 3).blk t).view.emb (ix2 p q)) 0).isLt⟩ : Fin 100000) k) :=
    aggregate_block_entry V c t p k _ r0 rfl
  have hw : iblk1 V c 2 t (ix2 k q)
      = V c main_arg4 (ix2 k (⟨((((cfg1.win 3).blk t).view.emb (ix2 p q)) 1).val, ((((cfg1.win 3).blk t).view.emb (ix2 p q)) 1).isLt⟩ : Fin 1)) :=
    weight_block_entry V c t k q _ rfl r1
  rw [hx, hw, bias_block_entry V c t k]

/-- An index of the output array is in point `t`'s block iff its row is among `10000·t … 10000·t + 9999`. -/
theorem in_block_iff (t : Fin cfg1.N) (i : S100000x1.Idx) :
    i ∈ ((cfg1.win 3).blk t).view.set ↔ ∀ a : Fin 2, win1_3.index t a * S10000x1.size a ≤ (i a).val ∧ (i a).val < win1_3.index t a * S10000x1.size a + S10000x1.size a := by
  show i ∈ ((View.whole main_v44).slice (win1_3.rect t)).set ↔ _
  rw [View.set_slice_whole, Rect.mem_set_unit]
  exact Iff.rfl

/-- The ten row blocks cover the output: row `r` is in block `r / 10000`. -/
theorem blocks_cover (i : S100000x1.Idx) :
    ∃ t : Fin cfg1.N, (cfg1.win 3).flush t = true ∧ i ∈ ((cfg1.win 3).blk t).view.set := by
  have hi0 : (i 0).val < 100000 := (i 0).isLt
  have hi1 : (i 1).val < 1 := (i 1).isLt
  have hN : cfg1.N = 10 := N_1
  refine ⟨⟨(i 0).val / 10000, by rw [hN]; omega⟩, flush1_3 _, ?_⟩
  rw [in_block_iff]
  obtain ⟨-, -, -, -, -, e5, e6⟩ := block_places ⟨(i 0).val / 10000, by rw [hN]; omega⟩
  intro a
  match a with
  | ⟨0, _⟩ =>
    show win1_3.index _ (0 : Fin 2) * 10000 ≤ (i 0).val ∧ (i 0).val < win1_3.index _ (0 : Fin 2) * 10000 + 10000
    rw [e5]; show (i 0).val / 10000 * 10000 ≤ (i 0).val ∧ (i 0).val < (i 0).val / 10000 * 10000 + 10000; omega
  | ⟨1, _⟩ =>
    show win1_3.index _ (1 : Fin 2) * 1 ≤ (i 1).val ∧ (i 1).val < win1_3.index _ (1 : Fin 2) * 1 + 1
    rw [e6]; omega

/-- THE OUTPUT ARRAY after the ten blocks is `hiddenProduct` of the arrays the stage was entered with. -/
theorem array_eq (c : Dev nD) :
    (dat1 V c).arrAt 3 cfg1.N = hiddenProduct (V c main_v43) (V c main_arg3) (V c main_arg4) :=
  (dat1 V c).arrAt_eq_of_cover 3 (hiddenProduct (V c main_v43) (V c main_arg3) (V c main_arg4)) (fun t _ => written_block V c t) blocks_cover

end Region

end Cert.KernelIdeal.HiddenBlocks

end
-- ==== Proof.Neighbourhood.lean ====
/-
  The host stages of the graph convolution, each as a function of whole arrays on the extended reals; they are the
  reference program's own operations, grouped by what they compute.

  * `sources`, `targets`: the two ends of the 1600000 edges, each followed by the 100000 nodes once — every node is
    also its own neighbour.
  * `degrees d`: for every node, how many of the 1700000 entries point at it (a sum of ones); `inverseRoots d`: one over
    the square root of the degree where the degree is positive, zero elsewhere; `edgeWeights s d`: per entry, the product
    of the inverse roots at its two ends (an end given as a negative number counts from the end of the node list: `wrapped`).
  * `neighbourSum32 h s d n`, `neighbourSum1 h s d n`: into every node `d[e]`, the sum over the entries `e` of row
    `s[e]` of `h` scaled by `n[e]` — for 32 columns and for one.
  * `rectifiedWithBias a b`: `max (a[r, k] + b[k]) 0`; `meanWithBias a b`: the mean over the 100000 nodes of `a[r, 0] + b[0]`.
  * `network`: the whole two-layer computation — features × first weights, neighbourhood sum, bias and rectifier,
    × second weights, neighbourhood sum, bias, mean over the nodes — with the two products in their index-by-index form.

  None of these stages is opened anywhere: both programs apply the same stages to the same arrays, and the proof only ever
  shows that the arrays going IN are equal.
-/
import proofs.«114104_j82583631168190_1_alg».proof.Proof.Gen.ReferenceIdeal
import proofs.«114104_j82583631168190_1_alg».proof.Proof.Products

noncomputable section

namespace GraphConv

open Cert.ReferenceIdeal Cert.ReferenceIdeal.Gen Idealize.ShloMosaic

/-- Integer and extended-real arrays of a shape. -/
abbrev Ints (s : Shape) : Type := IVec s 32
abbrev Reals (s : Shape) : Type := FVec Ideal s .f32

/-- The source end of every edge, then every node once. -/
def sources (x1 : Ints S2x1600000) : Ints S1700000 :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

/-- The target end of every edge, then every node once. -/
def targets (x1 : Ints S2x1600000) : Ints S1700000 :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- Node numbers as a column of gather positions, a negative number counted from the end of the node list. -/
def wrapped (s : Ints S1700000) : Ints S1700000x1 :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- Node numbers as a column of scatter positions. -/
def column (d : Ints S1700000) : Ints S1700000x1 :=
  broadcastInDim S1700000x1 ![0] bcast_S1700000_S1700000x1_0 d

/-- How many entries point at each node. -/
def degrees (d : Ints S1700000) : Reals S100000 :=
  Host.scatterAdd scatter_S100000_S1700000x1_S1700000_n_0_0_1 (broadcastInDim S100000 ![] bcast_S_S100000 (constant (F := Ideal) S_ .f32 0x00000000#32)) (column d) (broadcastInDim S1700000 ![] bcast_S_S1700000 (constant (F := Ideal) S_ .f32 0x3F800000#32))

/-- Which nodes have a positive degree. -/
def positiveDegrees (d : Ints S1700000) : IVec S100000 1 :=
  cmpf (F := Ideal) .ogt (degrees d) (broadcastInDim S100000 ![] bcast_S_S100000 (constant (F := Ideal) S_ .f32 0x00000000#32))

/-- One over the square root of every degree (whatever that is at degree zero). -/
def rootDegrees (d : Ints S1700000) : Reals S100000 :=
  Host.rsqrt (degrees d)

/-- The scalar zero that stands in where the degree is not positive. -/
def zeroScalar : Reals S_ :=
  constant (F := Ideal) S_ .f32 0x00000000#32

/-- Per node: `r` where `pos` says so, the scalar `z` elsewhere. -/
def chooseRoots (pos : IVec S100000 1) (r : Reals S100000) (z : Reals S_) : Reals S100000 :=
  select pos r (broadcastInDim S100000 ![] bcast_S_S100000 (id z))

/-- One over the square root of a positive degree, zero elsewhere. -/
def inverseRoots (d : Ints S1700000) : Reals S100000 :=
  chooseRoots (positiveDegrees d) (rootDegrees d) zeroScalar

/-- Per entry, the product of a per-node quantity `r` at its two ends. -/
def weightsFrom (r : Reals S100000) (s d : Ints S1700000) : Reals S1700000 :=
  mulf (Host.gather gather_S100000_S1700000x1_S1700000_n_0_n_n_0_1_1 r (wrapped s)) (Host.gather gather_S100000_S1700000x1_S1700000_n_0_n_n_0_1_1 r (wrapped d))

/-- Per entry, the product of the inverse roots at its two ends. -/
def edgeWeights (s d : Ints S1700000) : Reals S1700000 :=
  weightsFrom (inverseRoots d) s d

/-- Into every node, the weighted sum of its neighbours' 32-column rows. -/
def neighbourSum32 (h : Reals S100000x32) (s d : Ints S1700000) (n : Reals S1700000) : Reals S100000x32 :=
  Host.scatterAdd scatter_S100000x32_S1700000x1_S1700000x32_1_0_0_1 (broadcastInDim S100000x32 ![] bcast_S_S100000x32 (constant (F := Ideal) S_ .f32 0x00000000#32)) (column d) (mulf (Host.gather gather_S100000x32_S1700000x1_S1700000x32_1_0_n_n_0_1_132 h (wrapped s)) (broadcastInDim S1700000x32 ![0, 1] bcast_S1700000x1_S1700000x32_0_1 (broadcastInDim S1700000x1 ![0] bcast_S1700000_S1700000x1_0 n)))

/-- Into every node, the weighted sum of its neighbours' one-column rows. -/
def neighbourSum1 (h : Reals S100000x1) (s d : Ints S1700000) (n : Reals S1700000) : Reals S100000x1 :=
  Host.scatterAdd scatter_S100000x1_S1700000x1_S1700000x1_1_0_0_1 (broadcastInDim S100000x1 ![] bcast_S_S100000x1 (constant (F := Ideal) S_ .f32 0x00000000#32)) (column d) (mulf (Host.gather gather_S100000x1_S1700000x1_S1700000x1_1_0_n_n_0_1_11 h (wrapped s)) (broadcastInDim S1700000x1 ![0] bcast_S1700000_S1700000x1_0 n))

/-- The bias added to every row, then the larger of each entry and zero. -/
def rectifiedWithBias (a : Reals S100000x32) (x3 : Reals S32) : Reals S100000x32 :=
  maximumf (addf a (broadcastInDim S100000x32 ![0, 1] bcast_S1x32_S100000x32_0_1 (broadcastInDim S1x32 ![1] bcast_S32_S1x32_1 x3))) (broadcastInDim S100000x32 ![] bcast_S_S100000x32 (constant (F := Ideal) S_ .f32 0x00000000#32))

/-- The bias added to every node's value, then the mean over the 100000 nodes. -/
def meanWithBias (a : Reals S100000x1) (x5 : Reals S1) : Reals S1 :=
  Host.divf (Host.reduceAdd (addf a (broadcastInDim S100000x1 ![0, 1] bcast_S1x1_S100000x1_0_1 (broadcastInDim S1x1 ![1] bcast_S1_S1x1_1 x5))) (constant (F := Ideal) S_ .f32 0x00000000#32) reducesTo_S100000x1_S1_d0 h_S_) (broadcastInDim S1 ![] bcast_S_S1 (constant (F := Ideal) S_ .f32 0x47C35000#32))

/-- The two layers from the first product's output on: neighbourhood sum, the second product (with the first layer's
    bias and rectifier inside it), neighbourhood sum, bias and mean. -/
def afterFirstProduct (h : Reals S100000x32) (x1 : Ints S2x1600000) (x3 : Reals S32) (x4 : Reals S32x1) (x5 : Reals S1) : Reals S1 :=
  meanWithBias (neighbourSum1 (hiddenProduct (neighbourSum32 h (sources x1) (targets x1) (edgeWeights (sources x1) (targets x1))) x3 x4)
    (sources x1) (targets x1) (edgeWeights (sources x1) (targets x1))) x5

/-- The whole two-layer graph convolution and its mean, as one function of the six argument arrays. -/
def network (x0 : Reals S100000x128) (x1 : Ints S2x1600000) (x2 : Reals S128x32) (x3 : Reals S32) (x4 : Reals S32x1) (x5 : Reals S1) : Reals S1 :=
  afterFirstProduct (featureProduct x0 x2) x1 x3 x4 x5

end GraphConv

end
-- ==== Proof.KernelValue.lean ====
/-
  The kernel program's result as the network function of its arguments. Its run is a chain of segments; each is read here
  for ARBITRARY contents at its entry, and the chain is then composed:

  * the host stages before the first product leave the two edge-end lists and the edge weights, and touch no argument;
  * the first product's row blocks leave `featureProduct` of the features and first weights (FeatureBlocks);
  * the host stages between the products leave the neighbourhood sum of that array;
  * the second product's row blocks leave `hiddenProduct` of that sum, the first bias and the second weights (HiddenBlocks);
  * the closing host stages leave the mean, over the nodes, of the second neighbourhood sum plus the second bias.

  The host stages are the SAME functions the reference applies (Neighbourhood); nothing inside them is used.
-/
import proofs.«114104_j82583631168190_1_alg».proof.Proof.Gen.KernelIdeal.Frame
import proofs.«114104_j82583631168190_1_alg».proof.Proof.FeatureBlocks
import proofs.«114104_j82583631168190_1_alg».proof.Proof.HiddenBlocks
import proofs.«114104_j82583631168190_1_alg».proof.Proof.Neighbourhood
import Idealize.ShloMosaic.Lib.StableHlo.Run

set_option maxRecDepth 16384

noncomputable section

namespace Cert.KernelIdeal.Stages

open Cert.KernelIdeal Cert.KernelIdeal.Gen GraphConv
open Idealize.ShloMosaic Idealize.ShloMosaic.TcCoe Idealize.SL.Sem Idealize.ShloMosaic.StableHlo

/-! ## Each stretch of host stages, from arbitrary contents `W` -/

section Stretches
variable (W : Valuation τ sig (Elt Ideal))

/-! ### The first stretch: the edge ends and what the degrees give -/

theorem first_sources : after (hostOps0 (F := Ideal)) W (Proc.devRef .tc main_v5) = sources (W (Proc.devRef .tc main_arg1)) := by
  simp only [hostOps0]
  after_results_simp <;> rfl

theorem first_targets : after (hostOps0 (F := Ideal)) W (Proc.devRef .tc main_v6) = targets (W (Proc.devRef .tc main_arg1)) := by
  simp only [hostOps0]
  after_results_simp <;> rfl

theorem first_positive :
    after (hostOps0 (F := Ideal)) W (Proc.devRef .tc main_v12) = positiveDegrees (targets (W (Proc.devRef .tc main_arg1))) := by
  simp only [hostOps0]
  after_results_simp <;> rfl

theorem first_roots :
    after (hostOps0 (F := Ideal)) W (Proc.devRef .tc main_v13) = rootDegrees (targets (W (Proc.devRef .tc main_arg1))) := by
  simp only [hostOps0]
  after_results_simp <;> rfl

theorem first_zero : after (hostOps0 (F := Ideal)) W (Proc.devRef .tc main_cst_2) = zeroScalar := by
  simp only [hostOps0]
  after_results_simp <;> rfl

theorem first_kept (b : Ref sig .tc) (hb : b = main_arg0 ∨ b = main_arg2 ∨ b = main_arg3 ∨ b = main_arg4 ∨ b = main_arg5) :
    after (hostOps0 (F := Ideal)) W (Proc.devRef .tc b) = W (Proc.devRef .tc b) := by
  rcases hb with rfl | rfl | rfl | rfl | rfl <;>
  · simp only [hostOps0]
    after_results_simp <;> rfl

/-! ### The second stretch: the inverse roots chosen where the degree is positive -/

theorem second_choose :
    after (hostOps0_1 (F := Ideal)) W (Proc.devRef .tc main_v14)
      = chooseRoots (W (Proc.devRef .tc main_v12)) (W (Proc.devRef .tc main_v13)) (W (Proc.devRef .tc main_cst_2)) := by
  simp only [hostOps0_1]
  after_results_simp <;> rfl

theorem second_kept (b : Ref sig .tc)
    (hb : b = main_v5 ∨ b = main_v6 ∨ b = main_arg0 ∨ b = main_arg2 ∨ b = main_arg3 ∨ b = main_arg4 ∨ b = main_arg5) :
    after (hostOps0_1 (F := Ideal)) W (Proc.devRef .tc b) = W (Proc.devRef .tc b) := by
  rcases hb with rfl | rfl | rfl | rfl | rfl | rfl | rfl <;>
  · simp only [hostOps0_1]
    after_results_simp <;> rfl

/-! ### The third stretch: the edge weights -/

theorem third_weights :
    after (hostOps0_2 (F := Ideal)) W (Proc.devRef .tc main_v29)
      = weightsFrom (W (Proc.devRef .tc main_v14)) (W (Proc.devRef .tc main_v5)) (W (Proc.devRef .tc main_v6)) := by
  simp only [hostOps0_2]
  after_results_simp <;> rfl

theorem third_kept (b : Ref sig .tc)
    (hb : b = main_v5 ∨ b = main_v6 ∨ b = main_arg0 ∨ b = main_arg2 ∨ b = main_arg3 ∨ b = main_arg4 ∨ b = main_arg5) :
    after (hostOps0_2 (F := Ideal)) W (Proc.devRef .tc b) = W (Proc.devRef .tc b) := by
  rcases hb with rfl | rfl | rfl | rfl | rfl | rfl | rfl <;>
  · simp only [hostOps0_2]
    after_results_simp <;> rfl

/-! ### The three stretches before the first product, together -/

/-- Before the first product: the source ends, then every node once. -/
theorem prefix_sources :
    after (hostOps0_2 (F := Ideal)) (after (hostOps0_1 (F := Ideal)) (after (hostOps0 (F := Ideal)) W)) (Proc.devRef .tc main_v5)
      = sources (W (Proc.devRef .tc main_arg1)) :=
  (third_kept _ _ (.inl rfl)).trans ((second_kept _ _ (.inl rfl)).trans (first_sources W))

/-- Before the first product: the target ends, then every node once. -/
theorem prefix_targets :
    after (hostOps0_2 (F := Ideal)) (after (hostOps0_1 (F := Ideal)) (after (hostOps0 (F := Ideal)) W)) (Proc.devRef .tc main_v6)
      = targets (W (Proc.devRef .tc main_arg1)) :=
  (third_kept _ _ (.inr (.inl rfl))).trans ((second_kept _ _ (.inr (.inl rfl))).trans (first_targets W))

/-- Before the first product: the edge weights. -/
theorem prefix_weights :
    after (hostOps0_2 (F := Ideal)) (after (hostOps0_1 (F := Ideal)) (after (hostOps0 (F := Ideal)) W)) (Proc.devRef .tc main_v29)
      = edgeWeights (sources (W (Proc.devRef .tc main_arg1))) (targets (W (Proc.devRef .tc main_arg1))) := by
  refine (third_weights _).trans ?_
  rw [second_choose, second_kept _ main_v5 (.inl rfl), second_kept _ main_v6 (.inr (.inl rfl)),
    first_positive, first_roots, first_zero, first_sources, first_targets]
  rfl

/-- The stages before the first product write no argument array. -/
theorem prefix_kept (b : Ref sig .tc) (hb : b = main_arg0 ∨ b = main_arg2 ∨ b = main_arg3 ∨ b = main_arg4 ∨ b = main_arg5) :
    after (hostOps0_2 (F := Ideal)) (after (hostOps0_1 (F := Ideal)) (after (hostOps0 (F := Ideal)) W)) (Proc.devRef .tc b)
      = W (Proc.devRef .tc b) :=
  (third_kept _ b (by rcases hb with h | h | h | h | h <;> simp [h])).trans
    ((second_kept _ b (by rcases hb with h | h | h | h | h <;> simp [h])).trans (first_kept W b hb))

/-! ### Between the products, and after the second -/

/-- Between the products: the neighbourhood sum of the first product's output. -/
theorem middle_sum :
    after (hostOps1 (F := Ideal)) W (Proc.devRef .tc main_v43)
      = neighbourSum32 (W (Proc.devRef .tc main_v30)) (W (Proc.devRef .tc main_v5)) (W (Proc.devRef .tc main_v6)) (W (Proc.devRef .tc main_v29)) := by
  simp only [hostOps1]
  after_results_simp <;> rfl

/-- The stages between the products leave the edge lists, the edge weights and the later arguments as they were. -/
theorem middle_kept (b : Ref sig .tc) (hb : b = main_v5 ∨ b = main_v6 ∨ b = main_v29 ∨ b = main_arg3 ∨ b = main_arg4 ∨ b = main_arg5) :
    after (hostOps1 (F := Ideal)) W (Proc.devRef .tc b) = W (Proc.devRef .tc b) := by
  rcases hb with rfl | rfl | rfl | rfl | rfl | rfl <;>
  · simp only [hostOps1]
    after_results_simp <;> rfl

/-- After the second product: the second neighbourhood sum, the bias and the mean over the nodes. -/
theorem closing_mean :
    after (hostOps2 (F := Ideal)) W (Proc.devRef .tc main_v62)
      = meanWithBias (neighbourSum1 (W (Proc.devRef .tc main_v44)) (W (Proc.devRef .tc main_v5)) (W (Proc.devRef .tc main_v6)) (W (Proc.devRef .tc main_v29)))
          (W (Proc.devRef .tc main_arg5)) := by
  simp only [hostOps2]
  after_results_simp <;> rfl

end Stretches

/-! ## The chain -/

variable (m : (ℓ : Loc nD τ sig) → Buf (Elt Ideal) ℓ) (ρ : Dev nD → PrngReg) (c : Dev nD)

/-- An argument array as the first product finds it is the launch contents. -/
theorem entry0_kept (b : Ref sig .tc) (hb : b = main_arg0 ∨ b = main_arg2 ∨ b = main_arg3 ∨ b = main_arg4 ∨ b = main_arg5) :
    W3 m ρ c (Proc.devRef .tc b) = m ((c : Thread nD τ).loc b) :=
  prefix_kept (W0 m ρ c) b hb

/-- At the first product's exit its output holds `featureProduct` of the launched features and first weights. -/
theorem exit0_product :
    W4 m ρ c (Proc.devRef .tc main_v30)
      = featureProduct (m ((c : Thread nD τ).loc main_arg0)) (m ((c : Thread nD τ).loc main_arg2)) := by
  refine (W4_arr m ρ c 2).trans ?_
  rw [FeatureBlocks.array_eq (V3 m ρ) c]
  show featureProduct (W3 m ρ c (Proc.devRef .tc main_arg0)) (W3 m ρ c (Proc.devRef .tc main_arg2)) = _
  rw [entry0_kept m ρ c main_arg0 (.inl rfl), entry0_kept m ρ c main_arg2 (.inr (.inl rfl))]

/-- A buffer the first product does not use holds at its exit what it held at its entry. -/
theorem exit0_kept (b : Ref sig .tc) (hb : b = main_v5 ∨ b = main_v6 ∨ b = main_v29 ∨ b = main_arg3 ∨ b = main_arg4 ∨ b = main_arg5) :
    W4 m ρ c (Proc.devRef .tc b) = W3 m ρ c (Proc.devRef .tc b) := by
  rcases hb with rfl | rfl | rfl | rfl | rfl | rfl <;> exact W4_of_ne m ρ c _ (by decide)

/-- A buffer the second product does not use holds at its exit what it held at its entry. -/
theorem exit1_kept (b : Ref sig .tc) (hb : b = main_v5 ∨ b = main_v6 ∨ b = main_v29 ∨ b = main_arg5) :
    W6 m ρ c (Proc.devRef .tc b) = W5 m ρ c (Proc.devRef .tc b) := by
  rcases hb with rfl | rfl | rfl | rfl <;> exact W6_of_ne m ρ c _ (by decide)

/-- The edge lists, the edge weights and the later arguments, as every later segment finds them. -/
theorem sources_at3 : W3 m ρ c (Proc.devRef .tc main_v5) = sources (m ((c : Thread nD τ).loc main_arg1)) :=
  prefix_sources (W0 m ρ c)
theorem targets_at3 : W3 m ρ c (Proc.devRef .tc main_v6) = targets (m ((c : Thread nD τ).loc main_arg1)) :=
  prefix_targets (W0 m ρ c)
theorem weights_at3 : W3 m ρ c (Proc.devRef .tc main_v29)
    = edgeWeights (sources (m ((c : Thread nD τ).loc main_arg1))) (targets (m ((c : Thread nD τ).loc main_arg1))) :=
  prefix_weights (W0 m ρ c)

/-- What the second product finds in its first operand: the neighbourhood sum of the first product. -/
theorem entry1_sum :
    W5 m ρ c (Proc.devRef .tc main_v43)
      = neighbourSum32 (featureProduct (m ((c : Thread nD τ).loc main_arg0)) (m ((c : Thread nD τ).loc main_arg2)))
          (sources (m ((c : Thread nD τ).loc main_arg1))) (targets (m ((c : Thread nD τ).loc main_arg1)))
          (edgeWeights (sources (m ((c : Thread nD τ).loc main_arg1))) (targets (m ((c : Thread nD τ).loc main_arg1)))) := by
  refine (middle_sum (W4 m ρ c)).trans ?_
  rw [exit0_product, exit0_kept m ρ c main_v5 (.inl rfl), exit0_kept m ρ c main_v6 (.inr (.inl rfl)),
    exit0_kept m ρ c main_v29 (.inr (.inr (.inl rfl))), sources_at3, targets_at3, weights_at3]

/-- A later argument as the second product finds it is the launch contents. -/
theorem entry1_kept (b : Ref sig .tc) (hb : b = main_arg3 ∨ b = main_arg4 ∨ b = main_arg5) :
    W5 m ρ c (Proc.devRef .tc b) = m ((c : Thread nD τ).loc b) := by
  rcases hb with rfl | rfl | rfl
  · exact (middle_kept (W4 m ρ c) _ (.inr (.inr (.inr (.inl rfl))))).trans
      ((exit0_kept m ρ c _ (.inr (.inr (.inr (.inl rfl))))).trans (entry0_kept m ρ c _ (.inr (.inr (.inl rfl)))))
  · exact (middle_kept (W4 m ρ c) _ (.inr (.inr (.inr (.inr (.inl rfl)))))).trans
      ((exit0_kept m ρ c _ (.inr (.inr (.inr (.inr (.inl rfl)))))).trans (entry0_kept m ρ c _ (.inr (.inr (.inr (.inl rfl))))))
  · exact (middle_kept (W4 m ρ c) _ (.inr (.inr (.inr (.inr (.inr rfl)))))).trans
      ((exit0_kept m ρ c _ (.inr (.inr (.inr (.inr (.inr rfl)))))).trans (entry0_kept m ρ c _ (.inr (.inr (.inr (.inr rfl))))))

/-- The edge lists and weights as the second product's segment finds them. -/
theorem sources_at5 : W5 m ρ c (Proc.devRef .tc main_v5) = sources (m ((c : Thread nD τ).loc main_arg1)) :=
  (middle_kept (W4 m ρ c) _ (.inl rfl)).trans ((exit0_kept m ρ c _ (.inl rfl)).trans (sources_at3 m ρ c))
theorem targets_at5 : W5 m ρ c (Proc.devRef .tc main_v6) = targets (m ((c : Thread nD τ).loc main_arg1)) :=
  (middle_kept (W4 m ρ c) _ (.inr (.inl rfl))).trans ((exit0_kept m ρ c _ (.inr (.inl rfl))).trans (targets_at3 m ρ c))
theorem weights_at5 : W5 m ρ c (Proc.devRef .tc main_v29)
    = edgeWeights (sources (m ((c : Thread nD τ).loc main_arg1))) (targets (m ((c : Thread nD τ).loc main_arg1))) :=
  (middle_kept (W4 m ρ c) _ (.inr (.inr (.inl rfl)))).trans ((exit0_kept m ρ c _ (.inr (.inr (.inl rfl)))).trans (weights_at3 m ρ c))

/-- At the second product's exit its output holds `hiddenProduct` of the first neighbourhood sum. -/
theorem exit1_product :
    W6 m ρ c (Proc.devRef .tc main_v44)
      = hiddenProduct (neighbourSum32 (featureProduct (m ((c : Thread nD τ).loc main_arg0)) (m ((c : Thread nD τ).loc main_arg2)))
          (sources (m ((c : Thread nD τ).loc main_arg1))) (targets (m ((c : Thread nD τ).loc main_arg1)))
          (edgeWeights (sources (m ((c : Thread nD τ).loc main_arg1))) (targets (m ((c : Thread nD τ).loc main_arg1)))))
          (m ((c : Thread nD τ).loc main_arg3)) (m ((c : Thread nD τ).loc main_arg4)) := by
  refine (W6_arr m ρ c 3).trans ?_
  rw [HiddenBlocks.array_eq (V5 m ρ) c]
  show hiddenProduct (W5 m ρ c (Proc.devRef .tc main_v43)) (W5 m ρ c (Proc.devRef .tc main_arg3)) (W5 m ρ c (Proc.devRef .tc main_arg4)) = _
  rw [entry1_sum, entry1_kept m ρ c main_arg3 (.inl rfl), entry1_kept m ρ c main_arg4 (.inr (.inl rfl))]

/-- THE KERNEL PROGRAM'S RESULT is the network function of its six argument arrays. -/
theorem result_eq :
    W7 m ρ c (Proc.devRef .tc main_v62)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (closing_mean (W6 m ρ c)).trans ?_
  rw [exit1_product, exit1_kept m ρ c main_v5 (.inl rfl), exit1_kept m ρ c main_v6 (.inr (.inl rfl)),
    exit1_kept m ρ c main_v29 (.inr (.inr (.inl rfl))), exit1_kept m ρ c main_arg5 (.inr (.inr (.inr rfl))),
    sources_at5, targets_at5, weights_at5, entry1_kept m ρ c main_arg5 (.inr (.inr rfl))]
  rfl

end Cert.KernelIdeal.Stages

end
-- ==== Proof.ReferenceValue.lean ====
/-
  The reference program's result as the network function of its arguments. The reference's composed term is, stage by
  stage, the host stages of `Neighbourhood` around two whole matrix products; on the extended reals a whole product's
  entry is the plain sum over the contracted axis, so the first is `featureProduct` and the second — taken of the
  rectified, biased aggregate — is `hiddenProduct`. (The reference computes the edge weights twice, once per layer; the
  two computations are the same term.)
-/
import proofs.«114104_j82583631168190_1_alg».proof.Proof.ReferenceRun
import proofs.«114104_j82583631168190_1_alg».proof.Proof.Neighbourhood
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.WholeProducts

open Cert.ReferenceIdeal Cert.ReferenceIdeal.Gen GraphConv
open Idealize.ShloMosaic Idealize.ShloMosaic.TcCoe Idealize.ShloMosaic.ValueIdx Idealize.SL.Sem

/-! ## The first whole product -/

abbrev firstDot : DotDims S100000x128 S128x32 S100000x32 := dot_S100000x128_S128x32_S100000x32_1_0_0_1_n_n

theorem first_lhs_row (i : S100000x32.Idx) (q : firstDot.contr.Idx) : (firstDot.lhsIdx i q 0).val = (i 0).val := by
  unfold DotDims.lhsIdx
  rw [dif_neg (show ¬(0 : Fin S100000x128.rank) ∈ firstDot.lhsBatch by decide), dif_pos (show (0 : Fin S100000x128.rank) ∈ firstDot.lhsNonContracting by decide)]
  rfl
theorem first_lhs_col (i : S100000x32.Idx) (q : firstDot.contr.Idx) : (firstDot.lhsIdx i q 1).val = (q ⟨0, by decide⟩).val :=
  firstDot.lhsIdx_val_of_single rfl i q
theorem first_rhs_row (i : S100000x32.Idx) (q : firstDot.contr.Idx) : (firstDot.rhsIdx i q 0).val = (q ⟨0, by decide⟩).val :=
  firstDot.rhsIdx_val_of_single rfl i q
theorem first_rhs_col (i : S100000x32.Idx) (q : firstDot.contr.Idx) : (firstDot.rhsIdx i q 1).val = (i 1).val := by
  unfold DotDims.rhsIdx
  rw [dif_neg (show ¬(1 : Fin S128x32.rank) ∈ firstDot.rhsBatch by decide), dif_pos (show (1 : Fin S128x32.rank) ∈ firstDot.rhsNonContracting by decide)]
  rfl

/-- The whole product of features and first weights is `featureProduct`: entry `(r, j)` is the sum over the 128 columns. -/
theorem first_product (x0 : Reals S100000x128) (x2 : Reals S128x32) :
    Host.dotGeneral (F := Ideal) firstDot none x0 x2 = featureProduct x0 x2 := by
  funext i
  simp only [Host.dotGeneral]
  rw [Ideal.dotGeneral_apply, ← Equiv.sum_comp (contrEquiv1 firstDot 128 rfl rfl).symm]
  unfold featureProduct
  refine Finset.sum_congr rfl fun k _ => ?_
  have hk := contrEquiv1_symm_val firstDot 128 rfl rfl k
  have el : firstDot.lhsIdx i ((contrEquiv1 firstDot 128 rfl rfl).symm k) = ix2 (⟨(i 0).val, (i 0).isLt⟩ : Fin 100000) k :=
    funext fun a => Fin.ext (by
      match a with
      | ⟨0, _⟩ => exact first_lhs_row _ _
      | ⟨1, _⟩ => exact (first_lhs_col _ _).trans hk)
  have er : firstDot.rhsIdx i ((contrEquiv1 firstDot 128 rfl rfl).symm k) = ix2 k (⟨(i 1).val, (i 1).isLt⟩ : Fin 32) :=
    funext fun a => Fin.ext (by
      match a with
      | ⟨0, _⟩ => exact (first_rhs_row _ _).trans hk
      | ⟨1, _⟩ => exact first_rhs_col _ _)
  rw [el, er]

/-! ## The second whole product, of the rectified, biased aggregate -/

abbrev secondDot : DotDims S100000x32 S32x1 S100000x1 := dot_S100000x32_S32x1_S100000x1_1_0_0_1_n_n

theorem second_lhs_row (i : S100000x1.Idx) (q : secondDot.contr.Idx) : (secondDot.lhsIdx i q 0).val = (i 0).val := by
  unfold DotDims.lhsIdx
  rw [dif_neg (show ¬(0 : Fin S100000x32.rank) ∈ secondDot.lhsBatch by decide), dif_pos (show (0 : Fin S100000x32.rank) ∈ secondDot.lhsNonContracting by decide)]
  rfl
theorem second_lhs_col (i : S100000x1.Idx) (q : secondDot.contr.Idx) : (secondDot.lhsIdx i q 1).val = (q ⟨0, by decide⟩).val :=
  secondDot.lhsIdx_val_of_single rfl i q
theorem second_rhs_row (i : S100000x1.Idx) (q : secondDot.contr.Idx) : (secondDot.rhsIdx i q 0).val = (q ⟨0, by decide⟩).val :=
  secondDot.rhsIdx_val_of_single rfl i q
theorem second_rhs_col (i : S100000x1.Idx) (q : secondDot.contr.Idx) : (secondDot.rhsIdx i q 1).val = (i 1).val := by
  unfold DotDims.rhsIdx
  rw [dif_neg (show ¬(1 : Fin S32x1.rank) ∈ secondDot.rhsBatch by decide), dif_pos (show (1 : Fin S32x1.rank) ∈ secondDot.rhsNonContracting by decide)]
  rfl

/-- The bias vector, laid out as one row and repeated over the 100000 rows, reads at `(r, k)` the bias `k`. -/
theorem bias_rows_entry (x3 : Reals S32) (r : Fin 100000) (k : Fin 32) :
    broadcastInDim S100000x32 ![0, 1] bcast_S1x32_S100000x32_0_1 (broadcastInDim S1x32 ![1] bcast_S32_S1x32_1 x3) (ix2 r k) = x3 (ix1 k) := by
  refine (broadcastInDim_apply _ bcast_S1x32_S100000x32_0_1 _ (ix2 r k) (ix2 (0 : Fin 1) k) (fun a => match a with
    | ⟨0, _⟩ => by show 0 = if (1 : Nat) = 1 then 0 else r.val; rw [if_pos rfl]
    | ⟨1, _⟩ => by show k.val = if (32 : Nat) = 1 then 0 else k.val; rw [if_neg (by decide)])).trans ?_
  exact broadcastInDim_apply _ bcast_S32_S1x32_1 x3 (ix2 (0 : Fin 1) k) (ix1 k) (fun a => match a with
    | ⟨0, _⟩ => by show k.val = if (32 : Nat) = 1 then 0 else k.val; rw [if_neg (by decide)])

/-- The rectified, biased aggregate at `(r, k)`: the larger of `a[r, k] + b[k]` and zero. -/
theorem rectified_entry (a : Reals S100000x32) (x3 : Reals S32) (r : Fin 100000) (k : Fin 32) :
    rectifiedWithBias a x3 (ix2 r k) = max (a (ix2 r k) + x3 (ix1 k)) zeroWord := by
  unfold rectifiedWithBias
  show max (a (ix2 r k) + broadcastInDim S100000x32 ![0, 1] bcast_S1x32_S100000x32_0_1 (broadcastInDim S1x32 ![1] bcast_S32_S1x32_1 x3) (ix2 r k))
      (broadcastInDim S100000x32 ![] bcast_S_S100000x32 (constant (F := Ideal) S_ .f32 0x00000000#32) (ix2 r k)) = _
  rw [bias_rows_entry, broadcastInDim_apply _ bcast_S_S100000x32 (constant (F := Ideal) S_ .f32 0x00000000#32) (ix2 r k) ix0 (fun a => a.elim0)]
  rfl

/-- The whole product of the rectified, biased aggregate and the second weights is `hiddenProduct`. -/
theorem second_product (a : Reals S100000x32) (x3 : Reals S32) (x4 : Reals S32x1) :
    Host.dotGeneral (F := Ideal) secondDot none (rectifiedWithBias a x3) x4 = hiddenProduct a x3 x4 := by
  funext i
  simp only [Host.dotGeneral]
  rw [Ideal.dotGeneral_apply, ← Equiv.sum_comp (contrEquiv1 secondDot 32 rfl rfl).symm]
  unfold hiddenProduct
  refine Finset.sum_congr rfl fun k _ => ?_
  have hk := contrEquiv1_symm_val secondDot 32 rfl rfl k
  have el : secondDot.lhsIdx i ((contrEquiv1 secondDot 32 rfl rfl).symm k) = ix2 (⟨(i 0).val, (i 0).isLt⟩ : Fin 100000) k :=
    funext fun a => Fin.ext (by
      match a with
      | ⟨0, _⟩ => exact second_lhs_row _ _
      | ⟨1, _⟩ => exact (second_lhs_col _ _).trans hk)
  have er : secondDot.rhsIdx i ((contrEquiv1 secondDot 32 rfl rfl).symm k) = ix2 k (⟨(i 1).val, (i 1).isLt⟩ : Fin 1) :=
    funext fun a => Fin.ext (by
      match a with
      | ⟨0, _⟩ => exact (second_rhs_row _ _).trans hk
      | ⟨1, _⟩ => exact second_rhs_col _ _)
  rw [el, er, rectified_entry]

/-! ## The reference's result -/

variable (m : (ℓ : Loc nD τ sig) → Buf (Elt Ideal) ℓ) (c : Dev nD)

/-- The reference's composed term, read as its stages around the two whole products. -/
theorem result_stages :
    ValueP.res_main_v92 (F := Ideal) m c
      = meanWithBias (neighbourSum1 (Host.dotGeneral (F := Ideal) (φ₁ := .f32) (φ₂ := .f32) secondDot none
            (rectifiedWithBias (neighbourSum32 (Host.dotGeneral (F := Ideal) (φ₁ := .f32) (φ₂ := .f32) firstDot none (m ((c.tc : Thread nD τ).loc main_arg0)) (m ((c.tc : Thread nD τ).loc main_arg2)))
              (sources (m ((c.tc : Thread nD τ).loc main_arg1))) (targets (m ((c.tc : Thread nD τ).loc main_arg1)))
              (edgeWeights (sources (m ((c.tc : Thread nD τ).loc main_arg1))) (targets (m ((c.tc : Thread nD τ).loc main_arg1)))))
              (m ((c.tc : Thread nD τ).loc main_arg3))) (m ((c.tc : Thread nD τ).loc main_arg4)))
          (sources (m ((c.tc : Thread nD τ).loc main_arg1))) (targets (m ((c.tc : Thread nD τ).loc main_arg1)))
          (edgeWeights (sources (m ((c.tc : Thread nD τ).loc main_arg1))) (targets (m ((c.tc : Thread nD τ).loc main_arg1)))))
        (m ((c.tc : Thread nD τ).loc main_arg5)) := by
  unfold ValueP.res_main_v92
  rfl

/-- THE REFERENCE'S RESULT is the network function of its six argument arrays. -/
theorem result_eq :
    ValueP.res_main_v92 (F := Ideal) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [result_stages, first_product, second_product]
  rfl

end Cert.ReferenceIdeal.WholeProducts

end
-- ==== Proof.lean ====
/-
  A two-layer graph convolution over 100000 nodes and 1600000 edges, followed by the mean over the nodes: the kernel
  program against the plain reference, equal as extended reals.

  Both programs compute, from features `x`, an edge list, weights `W1`, `W2` and biases `b1`, `b2`,

      mean over the nodes of   N · ( max (N · (x · W1) + b1, 0) · W2 ) + b2,

  where `N ·` is the normalised neighbourhood sum: every node receives the rows of its neighbours (and its own), each
  scaled by one over the square roots of the two end nodes' degrees. The neighbourhood sums, the degrees and the mean are
  the same host computation in both programs. They differ in the two dense stages only: the reference takes each product
  whole, while the kernel program cuts the 100000 rows into ten blocks of 10000, multiplies each block by the whole weight
  matrix (after a rounding to bfloat16 that is the identity on the extended reals) and writes the block's rows back —
  for the second product with the bias and the rectifier applied to the block first. An entry of either product depends
  on ONE row of the left factor, so the blocks' results, laid back row by row, ARE the whole product: no sum is split or
  reordered, and no finiteness of the inputs is used. The reference also recomputes the edge weights for the second
  layer; the two computations are the same.

  * Products: the two dense stages as index-by-index sums.
  * FeatureBlocks, HiddenBlocks: what each of the ten blocks writes back, and that the ten tile the output array.
  * Neighbourhood: the host stages, named; never opened.
  * KernelValue: the kernel program's result, segment by segment, is `network` of its arguments.
  * ReferenceValue: so is the reference's.
  * ResultRun, ReferenceRun: each program runs to completion, its result buffer holding that value, its arguments unchanged.

  The kernel's idealisation rewrote nothing, so `preserves` has nothing to state.
-/
import proofs.«114104_j82583631168190_1_alg».proof.Defs
import proofs.«114104_j82583631168190_1_alg».proof.Proof.Gen.Kernel
import proofs.«114104_j82583631168190_1_alg».proof.Proof.Gen.Kernel.Skeleton
import proofs.«114104_j82583631168190_1_alg».proof.Proof.Gen.Kernel.Launch
import proofs.«114104_j82583631168190_1_alg».proof.Proof.Gen.Kernel.Points
import proofs.«114104_j82583631168190_1_alg».proof.Proof.Gen.Kernel.Frame
import proofs.«114104_j82583631168190_1_alg».proof.Proof.Gen.KernelIdeal
import proofs.«114104_j82583631168190_1_alg».proof.Proof.Gen.KernelIdeal.Skeleton
import proofs.«114104_j82583631168190_1_alg».proof.Proof.Gen.KernelIdeal.Launch
import proofs.«114104_j82583631168190_1_alg».proof.Proof.Gen.KernelIdeal.Points
import proofs.«114104_j82583631168190_1_alg».proof.Proof.Gen.KernelIdeal.Frame
import proofs.«114104_j82583631168190_1_alg».proof.Proof.Gen.ReferenceIdeal
import proofs.«114104_j82583631168190_1_alg».proof.Proof.Gen.Pre_finite_inputs
import proofs.«114104_j82583631168190_1_alg».proof.Proof.ResultRun
import proofs.«114104_j82583631168190_1_alg».proof.Proof.KernelValue
import proofs.«114104_j82583631168190_1_alg».proof.Proof.ReferenceRun
import proofs.«114104_j82583631168190_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel program runs, and leaves its arguments as launched. -/
theorem frame_kernel : Cert.frame_Kernel := fun m ρ _ => Cert.Kernel.Gen.frame m ρ

/-- So does its idealisation. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealisation rewrote no operation: nothing to preserve. -/
theorem preserves : Cert.preserves_Kernel_KernelIdeal := trivial

/-- From memories that agree on the six arguments both programs end with the mean at `network` of those arguments. -/
theorem algebraic : Cert.algebraic_KernelIdeal_ReferenceIdeal := by
  intro m ρ m' ρ' _ hagree
  refine ⟨fun c => GraphConv.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Stages.result_eq m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.WholeProducts.result_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
